-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg5 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x128 : Shape := ⟨2, ![5000, 128]⟩
abbrev S5000x16 : Shape := ⟨2, ![5000, 16]⟩
abbrev S3300000x16 : Shape := ⟨2, ![3300000, 16]⟩
abbrev S1x16 : Shape := ⟨2, ![1, 16]⟩

abbrev nBuf : Space → Nat
  | .hbm => 85
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S3300000x1, .f32⟩
  | .hbm, ⟨47, _⟩ => ⟨S100000x16, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S100000x16, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x16, .f32⟩
  | .hbm, ⟨76, _⟩ => ⟨S3300000x16, .f32⟩
  | .hbm, ⟨77, _⟩ => ⟨S3300000x16, .f32⟩
  | .hbm, ⟨78, _⟩ => ⟨S_, .f32⟩
  | .hbm, ⟨79, _⟩ => ⟨S100000x16, .f32⟩
  | .hbm, ⟨80, _⟩ => ⟨S3300000x1, .i32⟩
  | .hbm, ⟨81, _⟩ => ⟨S100000x16, .f32⟩
  | .hbm, ⟨82, _⟩ => ⟨S1x16, .f32⟩
  | .hbm, ⟨83, _⟩ => ⟨S100000x16, .f32⟩
  | .hbm, ⟨84, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x16, .f32⟩
  | .local _ .vmem, ⟨8, _⟩ => ⟨S5000x16, .f32⟩
  | .local _ .vmem, ⟨9, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_9 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x16_S16x16_0_0 : ∀ a, (![0, 0] : Fin 2 → Nat) a + S16x16.size a ≤ S16x16.size a
  h_S16x16 : 0 < S16x16.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x16_S5000x16_1_0_0_1_n_n_wf : DotDims.WF S5000x128 S128x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x16_S5000x16_1_0_0_1_n_n_wf : DotDims.WF S5000x16 S16x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x16.size a ≤ S16x16.size a
  hwx1_1 : ∀ i : grid1.Coords, EltTy.bits .f32 = 32 ∨ (Rect.block (s := S16x16) S16x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S1x3200000 : Shape := ⟨2, ![1, 3200000]⟩
abbrev S3200000 : Shape := ⟨1, ![3200000]⟩
abbrev S100000x16 : Shape := ⟨2, ![100000, 16]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000x16, .f32⟩
  | .hbm, ⟨11, _⟩ => ⟨S100000, .i32⟩
  | .hbm, ⟨12, _⟩ => ⟨S3300000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S100000, .i32⟩
  | .hbm, ⟨71, _⟩ => ⟨S3300000, .i32⟩
  | .hbm, ⟨72, _⟩ => ⟨S3300000, .i32⟩
  | .hbm, ⟨73, _⟩ => ⟨S_, .f32⟩
  | .hbm, ⟨74, _⟩ => ⟨S3300000, .f32⟩
  | .hbm, ⟨75, _⟩ => ⟨S_, .f32⟩
  | .hbm, ⟨76, _⟩ => ⟨S100000, .f32⟩
  | .hbm, ⟨77, _⟩ => ⟨S3300000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000, .f32⟩
  | .hbm, ⟨96, _⟩ => ⟨S_, .i32⟩
  | .hbm, ⟨97, _⟩ => ⟨S3300000, .i32⟩
  | .hbm, ⟨98, _⟩ => ⟨S3300000, .i1⟩
  | .hbm, ⟨99, _⟩ => ⟨S_, .i32⟩
  | .hbm, ⟨100, _⟩ => ⟨S3300000, .i32⟩
  | .hbm, ⟨101, _⟩ => ⟨S3300000, .i32⟩
  | .hbm, ⟨102, _⟩ => ⟨S3300000, .i32⟩
  | .hbm, ⟨103, _⟩ => ⟨S3300000x1, .i32⟩
  | .hbm, ⟨104, _⟩ => ⟨S3300000, .f32⟩
  | .hbm, ⟨105, _⟩ => ⟨S3300000, .f32⟩
  | .hbm, ⟨106, _⟩ => ⟨S_, .i32⟩
  | .hbm, ⟨107, _⟩ => ⟨S3300000, .i32⟩
  | .hbm, ⟨108, _⟩ => ⟨S3300000, .i1⟩
  | .hbm, ⟨109, _⟩ => ⟨S_, .i32⟩
  | .hbm, ⟨110, _⟩ => ⟨S3300000, .i32⟩
  | .hbm, ⟨111, _⟩ => ⟨S3300000, .i32⟩
  | .hbm, ⟨112, _⟩ => ⟨S3300000, .i32⟩
  | .hbm, ⟨113, _⟩ => ⟨S3300000x1, .i32⟩
  | .hbm, ⟨114, _⟩ => ⟨S3300000x16, .f32⟩
  | .hbm, ⟨115, _⟩ => ⟨S3300000x1, .f32⟩
  | .hbm, ⟨116, _⟩ => ⟨S3300000x16, .f32⟩
  | .hbm, ⟨117, _⟩ => ⟨S3300000x16, .f32⟩
  | .hbm, ⟨118, _⟩ => ⟨S_, .f32⟩
  | .hbm, ⟨119, _⟩ => ⟨S100000x16, .f32⟩
  | .hbm, ⟨120, _⟩ => ⟨S3300000x1, .i32⟩
  | .hbm, ⟨121, _⟩ => ⟨S100000x16, .f32⟩
  | .hbm, ⟨122, _⟩ => ⟨S1x16, .f32⟩
  | .hbm, ⟨123, _⟩ => ⟨S100000x16, .f32⟩
  | .hbm, ⟨124, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf

class Facts : Prop extends Facts₀ where

variable [Facts]
-- ==== Proof.GcnSpec.lean ====
/-
  Two layers of graph convolution, as one function of the argument arrays.

  The graph has 100000 nodes and 3200000 directed edges given as a [2, 3200000] array of node numbers (row 0 the
  sources, row 1 the destinations); every node also gets an edge to itself, so there are 3300000 edges in all. With
  deg(v) the number of edges into v and dinv(v) = deg(v)^(-1/2) where deg(v) > 0 and 0 elsewhere, an edge e from s to d
  has weight norm(e) = dinv(s) * dinv(d). One layer maps a feature matrix h [100000, 16] and a bias b [16] to

      out(v, j) = (sum over the edges e into v of h(src e, j) * norm(e)) + b(j),

  spelt with the host operations that compute it: a row gather at the (wrapped) source numbers, a product with the
  edge weights spread along the row, a scatter-add at the destination numbers into zeros, and the bias spread down
  the rows. The whole network is layer(max(layer(x · W1, b1), 0) · W2, b2).

  Nothing here is opened later: both programs apply these same operations, and the proof only shows that the feature
  matrices going into the two layers agree.
-/
import proofs.«130701_j58729382805523_1_alg».proof.Proof.Gen.ReferenceIdeal

noncomputable section

namespace Cert.Gcn

open Idealize.ShloMosaic Idealize.ShloMosaic.TcCoe Cert.ReferenceIdeal Cert.ReferenceIdeal.Gen

/-- The edge list, the node numbers along the edges, and the arrays over nodes and features. -/
abbrev Edges (F : FTy → Type) := (⟨S2x3200000, .i32⟩ : BufTy).Contents (Elt F)
abbrev Ids (F : FTy → Type) := (⟨S3300000, .i32⟩ : BufTy).Contents (Elt F)
abbrev NodeVec (F : FTy → Type) := (⟨S100000, .f32⟩ : BufTy).Contents (Elt F)
abbrev EdgeVec (F : FTy → Type) := (⟨S3300000, .f32⟩ : BufTy).Contents (Elt F)
abbrev Feat (F : FTy → Type) := (⟨S100000x16, .f32⟩ : BufTy).Contents (Elt F)
abbrev Bias (F : FTy → Type) := (⟨S16, .f32⟩ : BufTy).Contents (Elt F)

variable {F : FTy → Type} [FloatOps F]

/-- The source of every edge: row 0 of the edge list, then each node once (its self loop). -/
def srcIds (ei : Edges F) : Ids F :=
  concatenate S3300000 0 [⟨S3200000, (shapeCast _ (extractStridedSlice S1x3200000 ![0, 0] ei slices_S2x3200000_S1x3200000_0_0) shapeCasts_S1x3200000_S3200000)⟩, ⟨S100000, (iotaInDim S100000 32 0)⟩] concatenates_S3200000_S100000_S3300000_d0

/-- The destination of every edge: row 1 of the edge list, then each node once. -/
def dstIds (ei : Edges F) : Ids F :=
  concatenate S3300000 0 [⟨S3200000, (shapeCast _ (extractStridedSlice S1x3200000 ![1, 0] ei slices_S2x3200000_S1x3200000_1_0) shapeCasts_S1x3200000_S3200000)⟩, ⟨S100000, (iotaInDim S100000 32 0)⟩] concatenates_S3200000_S100000_S3300000_d0

/-- A negative node number counted from the end (n + 100000), as indexing by an array does. -/
def wrapIds (x : Ids F) : Ids F :=
  select (cmpi .slt x (broadcastInDim S3300000 ![] bcast_S_S3300000 (constantI S_ 32 0#32))) (addi x (broadcastInDim S3300000 ![] bcast_S_S3300000 (constantI S_ 32 100000#32))) x

/-- deg(v): ones scatter-added at the destinations into zeros. -/
def degree (ei : Edges F) : NodeVec F :=
  Host.scatterAdd scatter_S100000_S3300000x1_S3300000_n_0_0_1 (broadcastInDim S100000 ![] bcast_S_S100000 (constant (F := F) S_ .f32 0x00000000#32)) (broadcastInDim S3300000x1 ![0] bcast_S3300000_S3300000x1_0 (dstIds ei)) (broadcastInDim S3300000 ![] bcast_S_S3300000 (constant (F := F) S_ .f32 0x3F800000#32))

/-- dinv(v) = deg(v)^(-1/2) where deg(v) > 0, and 0 elsewhere. -/
def degInvSqrt (ei : Edges F) : NodeVec F :=
  select (cmpf .ogt (degree (F := F) ei) (broadcastInDim S100000 ![] bcast_S_S100000 (constant (F := F) S_ .f32 0x00000000#32))) (Host.rsqrt (degree (F := F) ei)) (broadcastInDim S100000 ![] bcast_S_S100000 (id (constant (F := F) S_ .f32 0x00000000#32)))

/-- norm(e) = dinv(src e) * dinv(dst e). -/
def edgeNorm (ei : Edges F) : EdgeVec F :=
  mulf (Host.gather gather_S100000_S3300000x1_S3300000_n_0_n_n_0_1_1 (degInvSqrt (F := F) ei) (broadcastInDim S3300000x1 ![0] bcast_S3300000_S3300000x1_0 (wrapIds (srcIds ei)))) (Host.gather gather_S100000_S3300000x1_S3300000_n_0_n_n_0_1_1 (degInvSqrt (F := F) ei) (broadcastInDim S3300000x1 ![0] bcast_S3300000_S3300000x1_0 (wrapIds (dstIds ei))))

/-- One layer's aggregation: out(v, j) = (sum over the edges e into v of h(src e, j) * norm(e)) + b(j). -/
def aggregate (ei : Edges F) (h : Feat F) (b : Bias F) : Feat F :=
  addf (Host.scatterAdd scatter_S100000x16_S3300000x1_S3300000x16_1_0_0_1 (broadcastInDim S100000x16 ![] bcast_S_S100000x16 (constant (F := F) S_ .f32 0x00000000#32)) (broadcastInDim S3300000x1 ![0] bcast_S3300000_S3300000x1_0 (dstIds ei)) (mulf (Host.gather gather_S100000x16_S3300000x1_S3300000x16_1_0_n_n_0_1_116 h (broadcastInDim S3300000x1 ![0] bcast_S3300000_S3300000x1_0 (wrapIds (srcIds ei)))) (broadcastInDim S3300000x16 ![0, 1] bcast_S3300000x1_S3300000x16_0_1 (broadcastInDim S3300000x1 ![0] bcast_S3300000_S3300000x1_0 (edgeNorm (F := F) ei))))) (broadcastInDim S100000x16 ![0, 1] bcast_S1x16_S100000x16_0_1 (broadcastInDim S1x16 ![1] bcast_S16_S1x16_1 b))

/-- The two layers: aggregate(max(aggregate(x · W1, b1), 0) · W2, b2), both products the host's `dot_general`. -/
def twoLayer (x : (⟨S100000x128, .f32⟩ : BufTy).Contents (Elt F)) (ei : Edges F) (w1 : (⟨S128x16, .f32⟩ : BufTy).Contents (Elt F))
    (b1 : Bias F) (w2 : (⟨S16x16, .f32⟩ : BufTy).Contents (Elt F)) (b2 : Bias F) : Feat F :=
  aggregate ei
    (Host.dotGeneral dot_S100000x16_S16x16_S100000x16_1_0_0_1_n_n none
      (maximumf (aggregate ei (Host.dotGeneral dot_S100000x128_S128x16_S100000x16_1_0_0_1_n_n none x w1) b1)
        (broadcastInDim S100000x16 ![] bcast_S_S100000x16 (constant (F := F) S_ .f32 0x00000000#32)))
      w2)
    b2

end Cert.Gcn

end
-- ==== Proof.RefValue.lean ====
/-
  The reference program computes the two-layer function.

  The reference's run ends with its result buffer at the composed term of its 119 host operations. That term is
  `Cert.Gcn.twoLayer` of the argument arrays: the reference computes the edge weights once per layer, from the same
  edge list by the same operations, so both layers' weights are one term, and each layer is `aggregate` of a host
  product. The equation is checked by unfolding the definitions.
-/
import proofs.«130701_j58729382805523_1_alg».proof.Proof.RefRunPatched
import proofs.«130701_j58729382805523_1_alg».proof.Proof.GcnSpec

set_option maxRecDepth 16384

noncomputable section

namespace Cert.Gcn

open Idealize.ShloMosaic Idealize.ShloMosaic.TcCoe Idealize.SL.Sem Cert.ReferenceIdeal Cert.ReferenceIdeal.Gen

variable {F : FTy → Type} [FloatOps F]

/-- The reference's result term is the two-layer function of the launch contents of its six arguments. -/
theorem reference_result (m : (ℓ : Loc nD τ sig) → Buf (Elt F) ℓ) (c : Dev nD) :
    Cert.ReferenceIdeal.RunP.res_main_v90 m c
      = twoLayer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.RunP.res_main_v90 twoLayer aggregate edgeNorm degInvSqrt degree wrapIds srcIds dstIds
  rfl

end Cert.Gcn

end
-- ==== Proof.KernelRun.lean ====
/-
  The idealized kernel program's run with its result named.

  The program is seven segments: three stretches of host operations, the first matrix-product region, a stretch of
  host operations, the second matrix-product region, and a last stretch of host operations. The generated frame
  module names the buffer contents at every segment boundary (a fold from the launch memory: a stretch's operations
  applied in order, a region's arrays at what its write-backs leave) and proves that the program is the run of these
  segments. Here the same run is read with a stronger conclusion: besides the argument arrays ending as launched, the
  result buffer ends at the last boundary's contents.
-/
import proofs.«130701_j58729382805523_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the contents
    the last segment boundary names for it, and every argument array is as launched. -/
theorem run : θ_run defs (onTc (τ := τ) (main (F := F))) ⟨m, fun _ => 0, ρ⟩ (fun r => ∀ c : Dev nD,
      r.2.mem ((c.tc : Thread nD τ).loc main_v62) = W7 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v62 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunV

end
-- ==== Proof.KernelBoundary.lean ====
/-
  The buffer contents at the segment boundaries of the idealized kernel program, read as values.

  Before the first region three stretches of host operations compute, from the edge list alone, the source and the
  destination of every edge (with the self loops) and the edge weights; no later operation writes these buffers or an
  argument array, so they hold the same values at every later boundary.
-/
import proofs.«130701_j58729382805523_1_alg».proof.Proof.Gen.KernelIdeal.Frame
import proofs.«130701_j58729382805523_1_alg».proof.Proof.GcnSpec
import Idealize.ShloMosaic.Lib.StableHlo.Run

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first region's entry -/

set_option maxHeartbeats 4000000 in
/-- The sources of the edges. -/
theorem entry0_src (c : Dev nD) :
    W3 m ρ c (Proc.devRef .tc main_v5) = Cert.Gcn.srcIds (F := F) (m ((c.tc : Thread nD τ).loc main_arg1)) := by
  show after hostOps0_2 (after hostOps0_1 (after hostOps0 (W0 m ρ c))) (Proc.devRef .tc main_v5) = _
  dsimp only [hostOps0_2, hostOps0_1, hostOps0]
  after_results_simp
  rfl

set_option maxHeartbeats 4000000 in
/-- The destinations of the edges. -/
theorem entry0_dst (c : Dev nD) :
    W3 m ρ c (Proc.devRef .tc main_v6) = Cert.Gcn.dstIds (F := F) (m ((c.tc : Thread nD τ).loc main_arg1)) := by
  show after hostOps0_2 (after hostOps0_1 (after hostOps0 (W0 m ρ c))) (Proc.devRef .tc main_v6) = _
  dsimp only [hostOps0_2, hostOps0_1, hostOps0]
  after_results_simp
  rfl

set_option maxHeartbeats 4000000 in
/-- The edge weights, as a column. -/
theorem entry0_norm (c : Dev nD) :
    W3 m ρ c (Proc.devRef .tc main_v30)
      = broadcastInDim S3300000x1 ![0] bcast_S3300000_S3300000x1_0 (Cert.Gcn.edgeNorm (F := F) (m ((c.tc : Thread nD τ).loc main_arg1))) := by
  show after hostOps0_2 (after hostOps0_1 (after hostOps0 (W0 m ρ c))) (Proc.devRef .tc main_v30) = _
  dsimp only [hostOps0_2, hostOps0_1, hostOps0]
  after_results_simp
  rfl

set_option maxHeartbeats 4000000 in
/-- Argument 0 is as launched. -/
theorem entry0_arg0 (c : Dev nD) : W3 m ρ c (Proc.devRef .tc main_arg0) = (m ((c.tc : Thread nD τ).loc main_arg0)) := by
  show after hostOps0_2 (after hostOps0_1 (after hostOps0 (W0 m ρ c))) (Proc.devRef .tc main_arg0) = _
  dsimp only [hostOps0_2, hostOps0_1, hostOps0]
  after_results_simp <;> rfl

set_option maxHeartbeats 4000000 in
/-- Argument 2 is as launched. -/
theorem entry0_arg2 (c : Dev nD) : W3 m ρ c (Proc.devRef .tc main_arg2) = (m ((c.tc : Thread nD τ).loc main_arg2)) := by
  show after hostOps0_2 (after hostOps0_1 (after hostOps0 (W0 m ρ c))) (Proc.devRef .tc main_arg2) = _
  dsimp only [hostOps0_2, hostOps0_1, hostOps0]
  after_results_simp <;> rfl

set_option maxHeartbeats 4000000 in
/-- Argument 3 is as launched. -/
theorem entry0_arg3 (c : Dev nD) : W3 m ρ c (Proc.devRef .tc main_arg3) = (m ((c.tc : Thread nD τ).loc main_arg3)) := by
  show after hostOps0_2 (after hostOps0_1 (after hostOps0 (W0 m ρ c))) (Proc.devRef .tc main_arg3) = _
  dsimp only [hostOps0_2, hostOps0_1, hostOps0]
  after_results_simp <;> rfl

set_option maxHeartbeats 4000000 in
/-- Argument 4 is as launched. -/
theorem entry0_arg4 (c : Dev nD) : W3 m ρ c (Proc.devRef .tc main_arg4) = (m ((c.tc : Thread nD τ).loc main_arg4)) := by
  show after hostOps0_2 (after hostOps0_1 (after hostOps0 (W0 m ρ c))) (Proc.devRef .tc main_arg4) = _
  dsimp only [hostOps0_2, hostOps0_1, hostOps0]
  after_results_simp <;> rfl

set_option maxHeartbeats 4000000 in
/-- Argument 5 is as launched. -/
theorem entry0_arg5 (c : Dev nD) : W3 m ρ c (Proc.devRef .tc main_arg5) = (m ((c.tc : Thread nD τ).loc main_arg5)) := by
  show after hostOps0_2 (after hostOps0_1 (after hostOps0 (W0 m ρ c))) (Proc.devRef .tc main_arg5) = _
  dsimp only [hostOps0_2, hostOps0_1, hostOps0]
  after_results_simp <;> rfl

end Cert.KernelIdeal.Boundary

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.Region0Value.lean ====
/-
  The first matrix-product region: what its output array holds when the region ends.

  The region walks 20 grid points. At point t it stages rows 5000 t … 5000 t + 4999 of the [100000, 128] left operand,
  the whole [128, 16] right operand, and writes back rows 5000 t … 5000 t + 4999 of the [100000, 16] output. The body
  stores the block's product accumulated into zeros, so at the extended reals (where the narrowing to bf16 is the
  identity) entry (p, q) of the stored block is the sum over k of lhs(5000 t + p, k) * rhs(k, q): block t of the whole
  product. The 20 blocks tile the output, so the output array ends holding the whole product, the host's
  `dot_general` of the two arrays as the region found them.
-/
import proofs.«130701_j58729382805523_1_alg».proof.Proof.Gen.KernelIdeal.Frame
import proofs.«130701_j58729382805523_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-- The whole product: entry (r, q) is the sum over k of x(r, k) * w(k, q). -/
abbrev product (x : S100000x128.Idx → Elt Ideal .f32) (w : S128x16.Idx → Elt Ideal .f32) : S100000x16.Idx → Elt Ideal .f32 :=
  FloatOps.dotGeneral (F := Ideal) (φ₁ := .f32) (φ₂ := .f32) (DotDims.plain 100000 128 16) none .single x w

theorem zeroOffsets : (![0, 0] : Fin 2 → Nat) = fun _ => 0 := funext fun a => by fin_cases a <;> rfl

/-- The body's stored value at entry (p, q) of the block: the row of the left block against the column of the right. -/
theorem payload_apply (x0 : Vec Ideal S5000x128 .f32) (x1 : Vec Ideal S128x16 .f32) (p : Fin 5000) (q : Fin 16) :
    k0_pay1 (F := Ideal) x0 x1 (ix2 p q) = ∑ k : Fin 128, x0 (ix2 p k) * x1 (ix2 k q) := by
  unfold k0_pay1
  exact (Cert.Sage.matmul_plain_zero_apply none (truncf .bf16 x0 bitsLt_bf16_f32) (truncf .bf16 x1 bitsLt_bf16_f32) p q).trans
    (Finset.sum_congr rfl fun k _ => rfl)

/-- A stored block is a block of rows of the whole product: if the left block holds rows 5000 T … of `X` and the
    right block is `W`, then the block's entry `j` is the product's entry at row 5000 T + (row of j), same column. -/
theorem block_apply (X : S100000x128.Idx → Elt Ideal .f32) (W : S128x16.Idx → Elt Ideal .f32)
    (x0 : Vec Ideal S5000x128 .f32) (x1 : Vec Ideal S128x16 .f32) (T : ℕ) (hT : T < 20)
    (h0 : ∀ (p : Fin 5000) (k : Fin 128), x0 (ix2 p k) = X (ix2 (⟨5000 * T + p.val, by omega⟩ : Fin 100000) k))
    (h1 : ∀ (k : Fin 128) (q : Fin 16), x1 (ix2 k q) = W (ix2 k q))
    (j : S5000x16.Idx) (i : S100000x16.Idx) (hi0 : (i 0).val = 5000 * T + (j 0).val) (hi1 : (i 1).val = (j 1).val) :
    k0_pay1 (F := Ideal) x0 x1 j = product X W i := by
  obtain ⟨p, q, rfl⟩ : ∃ (p : Fin 5000) (q : Fin 16), j = ix2 p q := ⟨j 0, j 1, eq_ix2 j⟩
  obtain ⟨r, s, rfl⟩ : ∃ (r : Fin 100000) (s : Fin 16), i = ix2 r s := ⟨i 0, i 1, eq_ix2 i⟩
  refine (payload_apply x0 x1 p q).trans ?_
  refine Eq.trans ?_ (Cert.Sage.dotGeneral_plain_apply none .single X W r s).symm
  have hr : r = (⟨5000 * T + p.val, by omega⟩ : Fin 100000) := Fin.ext hi0
  have hs : s = q := Fin.ext hi1
  rw [hr, hs]
  exact Finset.sum_congr rfl fun k _ => by rw [h0 p k, h1 k q]

/-- The printed index maps over the grid: the row-blocked windows are at block (t, 0), the right operand at (0, 0). -/
theorem index_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

variable (V : (c : Dev nD) → (b : Ref sig .tc) → Buf (Elt Ideal) ((c : Thread nD τ).loc b))

/-- The left window's block at point t is rows 5000 t … 5000 t + 4999 of its array. -/
theorem lhs_block_apply (c : Dev nD) (t : Fin cfg0.N) (y : S5000x128.Idx) (k : S100000x128.Idx)
    (hk0 : (k 0).val = 5000 * t.val + (y 0).val) (hk1 : (k 1).val = (y 1).val) :
    (iblk0 V c 0 t : Vec Ideal S5000x128 .f32) y = (V c main_arg0 : S100000x128.Idx → Elt Ideal .f32) k := by
  obtain ⟨-, -, e00, e01, -, -⟩ := index_facts t
  unfold iblk0
  rw [View.read_apply]
  show V c main_arg0 _ = V c main_arg0 _
  congr 1
  funext a
  apply Fin.ext
  match a with
  | ⟨0, _⟩ => show win0_0.index t 0 * 5000 + 1 * (y 0).val = (k 0).val; rw [e00, hk0]; omega
  | ⟨1, _⟩ => show win0_0.index t 1 * 128 + 1 * (y 1).val = (k 1).val; rw [e01, hk1]; omega

/-- The right window's block at every point is its whole array. -/
theorem rhs_block_apply (c : Dev nD) (t : Fin cfg0.N) (y : S128x16.Idx) :
    (iblk0 V c 1 t : Vec Ideal S128x16 .f32) y = (V c main_arg2 : S128x16.Idx → Elt Ideal .f32) y := by
  obtain ⟨-, -, -, -, e10, e11⟩ := index_facts t
  unfold iblk0
  rw [View.read_apply]
  show V c main_arg2 _ = V c main_arg2 _
  congr 1
  funext a
  apply Fin.ext
  match a with
  | ⟨0, _⟩ => show win0_1.index t 0 * 128 + 1 * (y 0).val = (y 0).val; rw [e10]; omega
  | ⟨1, _⟩ => show win0_1.index t 1 * 16 + 1 * (y 1).val = (y 1).val; rw [e11]; omega

/-- What point t writes back is block t of the whole product of the two arrays as the region found them. -/
theorem flushed_eq (c : Dev nD) (t : Fin cfg0.N) :
    (dat0 (F := Ideal) V c).flushed 2 t
      = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x16) zeroOffsets]
  obtain ⟨e20, e21, -, -, -, -⟩ := index_facts t
  have ht : t.val < 20 := lt_of_lt_of_eq t.isLt N_0
  funext j
  rw [View.read_apply]
  exact block_apply (V c main_arg0) (V c main_arg2) (iblk0 V c 0 t) (iblk0 V c 1 t) t.val ht
    (fun p k => lhs_block_apply V c t (ix2 p k) (ix2 (⟨5000 * t.val + p.val, by omega⟩ : Fin 100000) k) rfl rfl)
    (fun k q => rhs_block_apply V c t (ix2 k q))
    j (((cfg0.win 2).blk t).view.emb j)
    (by show win0_2.index t 0 * 5000 + 1 * (j 0).val = 5000 * t.val + (j 0).val; rw [e20]; omega)
    (by show win0_2.index t 1 * 16 + 1 * (j 1).val = (j 1).val; rw [e21]; omega)

/-- An index of the output array is in point t's block iff each coordinate is in the block's range. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v31).slice (win0_2.rect t)).set ↔ _
  rw [View.set_slice_whole, Rect.mem_set_unit]
  exact Iff.rfl

/-- Row r of the output lies in the block of point r / 5000, and every point writes its block back. -/
theorem cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have hlt : (i 0).val / 5000 < cfg0.N := by rw [hN]; omega
  obtain ⟨e20, e21, -, -, -, -⟩ := index_facts ⟨(i 0).val / 5000, hlt⟩
  refine ⟨⟨(i 0).val / 5000, hlt⟩, flush0_2 _, ?_⟩
  rw [mem_block]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hlt⟩ (1 : Fin 2) * 16 ≤ (i 1).val ∧ (i 1).val < win0_2.index ⟨(i 0).val / 5000, hlt⟩ (1 : Fin 2) * 16 + 16
    rw [e21]; omega

/-- The output array when the region ends: the whole product of the two operand arrays as the region found them. -/
theorem output_array (c : Dev nD) :
    (dat0 (F := Ideal) V c).arrAt 2 cfg0.N = product (V c main_arg0) (V c main_arg2) :=
  (dat0 V c).arrAt_eq_of_cover 2 (product (V c main_arg0) (V c main_arg2)) (fun t _ => flushed_eq V c t) cover

end Cert.KernelIdeal.Region0

end
-- ==== Proof.Region1Value.lean ====
/-
  The second matrix-product region: what its output array holds when the region ends.

  As in the first region, 20 grid points; point t stages rows 5000 t … 5000 t + 4999 of the [100000, 16] left operand
  and the whole [16, 16] right operand and writes back rows 5000 t … 5000 t + 4999 of the [100000, 16] output. The body
  first takes the maximum of the left block with zero, entry by entry, and then stores the block's product accumulated
  into zeros. At the extended reals entry (p, q) of the stored block is the sum over k of
  max(lhs(5000 t + p, k), 0) * rhs(k, q), so the output array ends holding the host's `dot_general` of the left array's
  maximum with a zero array, and the right array.
-/
import proofs.«130701_j58729382805523_1_alg».proof.Proof.Gen.KernelIdeal.Frame
import proofs.«130701_j58729382805523_1_alg».proof.Proof.LibPlainDot
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-- The array's maximum with zero, entry by entry, in the host's spelling (a zero scalar spread over the shape). -/
abbrev positivePart (x : S100000x16.Idx → Elt Ideal .f32) : S100000x16.Idx → Elt Ideal .f32 :=
  maximumf (F := Ideal) (φ := .f32) x (broadcastInDim S100000x16 ![] bcast_S_S100000x16 (constant (F := Ideal) S_ .f32 0x00000000#32))

/-- The whole product after the maximum: entry (r, q) is the sum over k of max(x(r, k), 0) * w(k, q). -/
abbrev product (x : S100000x16.Idx → Elt Ideal .f32) (w : S16x16.Idx → Elt Ideal .f32) : S100000x16.Idx → Elt Ideal .f32 :=
  FloatOps.dotGeneral (F := Ideal) (φ₁ := .f32) (φ₂ := .f32) (DotDims.plain 100000 16 16) none .single (positivePart x) w

theorem zeroOffsets : (![0, 0] : Fin 2 → Nat) = fun _ => 0 := funext fun a => by fin_cases a <;> rfl

/-- The body's stored value at entry (p, q) of the block. -/
theorem payload_apply (x0 : Vec Ideal S5000x16 .f32) (x1 : Vec Ideal S16x16 .f32) (p : Fin 5000) (q : Fin 16) :
    k1_pay1 (F := Ideal) x0 x1 (ix2 p q)
      = ∑ k : Fin 16, max (x0 (ix2 p k)) (Ideal.ofBits .f32 0x00000000#32) * x1 (ix2 k q) := by
  unfold k1_pay1
  rw [shapeCast_self]
  exact (Cert.Sage.matmul_plain_zero_apply none
      (truncf .bf16 (maximumf x0 (broadcast S5000x16 (Scalar.ofBits (F := Ideal) .f32 0x00000000#32))) bitsLt_bf16_f32)
      (truncf .bf16 x1 bitsLt_bf16_f32) p q).trans
    (Finset.sum_congr rfl fun k _ => rfl)

/-- The whole product at entry (r, s). -/
theorem product_apply (X : S100000x16.Idx → Elt Ideal .f32) (W : S16x16.Idx → Elt Ideal .f32) (r : Fin 100000) (s : Fin 16) :
    product X W (ix2 r s) = ∑ k : Fin 16, max (X (ix2 r k)) (Ideal.ofBits .f32 0x00000000#32) * W (ix2 k s) := by
  refine (Cert.Sage.dotGeneral_plain_apply none .single (positivePart X) W r s).trans ?_
  refine Finset.sum_congr rfl fun k _ => ?_
  show max (X (ix2 r k)) (broadcastInDim S100000x16 ![] bcast_S_S100000x16 (constant (F := Ideal) S_ .f32 0x00000000#32) (ix2 r k)) * _ = _
  rw [broadcastInDim_scalar_apply]
  rfl

/-- A stored block is a block of rows of the whole product. -/
theorem block_apply (X : S100000x16.Idx → Elt Ideal .f32) (W : S16x16.Idx → Elt Ideal .f32)
    (x0 : Vec Ideal S5000x16 .f32) (x1 : Vec Ideal S16x16 .f32) (T : ℕ) (hT : T < 20)
    (h0 : ∀ (p : Fin 5000) (k : Fin 16), x0 (ix2 p k) = X (ix2 (⟨5000 * T + p.val, by omega⟩ : Fin 100000) k))
    (h1 : ∀ (k : Fin 16) (q : Fin 16), x1 (ix2 k q) = W (ix2 k q))
    (j : S5000x16.Idx) (i : S100000x16.Idx) (hi0 : (i 0).val = 5000 * T + (j 0).val) (hi1 : (i 1).val = (j 1).val) :
    k1_pay1 (F := Ideal) x0 x1 j = product X W i := by
  obtain ⟨p, q, rfl⟩ : ∃ (p : Fin 5000) (q : Fin 16), j = ix2 p q := ⟨j 0, j 1, eq_ix2 j⟩
  obtain ⟨r, s, rfl⟩ : ∃ (r : Fin 100000) (s : Fin 16), i = ix2 r s := ⟨i 0, i 1, eq_ix2 i⟩
  refine (payload_apply x0 x1 p q).trans ?_
  refine Eq.trans ?_ (product_apply X W r s).symm
  have hr : r = (⟨5000 * T + p.val, by omega⟩ : Fin 100000) := Fin.ext hi0
  have hs : s = q := Fin.ext hi1
  rw [hr, hs]
  exact Finset.sum_congr rfl fun k _ => by rw [h0 p k, h1 k q]

/-- The printed index maps over the grid: the row-blocked windows are at block (t, 0), the right operand at (0, 0). -/
theorem index_facts : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

variable (V : (c : Dev nD) → (b : Ref sig .tc) → Buf (Elt Ideal) ((c : Thread nD τ).loc b))

/-- The left window's block at point t is rows 5000 t … 5000 t + 4999 of its array. -/
theorem lhs_block_apply (c : Dev nD) (t : Fin cfg1.N) (y : S5000x16.Idx) (k : S100000x16.Idx)
    (hk0 : (k 0).val = 5000 * t.val + (y 0).val) (hk1 : (k 1).val = (y 1).val) :
    (iblk1 V c 0 t : Vec Ideal S5000x16 .f32) y = (V c main_v46 : S100000x16.Idx → Elt Ideal .f32) k := by
  obtain ⟨-, -, e00, e01, -, -⟩ := index_facts t
  unfold iblk1
  rw [View.read_apply]
  show V c main_v46 _ = V c main_v46 _
  congr 1
  funext a
  apply Fin.ext
  match a with
  | ⟨0, _⟩ => show win1_0.index t 0 * 5000 + 1 * (y 0).val = (k 0).val; rw [e00, hk0]; omega
  | ⟨1, _⟩ => show win1_0.index t 1 * 16 + 1 * (y 1).val = (k 1).val; rw [e01, hk1]; omega

/-- The right window's block at every point is its whole array. -/
theorem rhs_block_apply (c : Dev nD) (t : Fin cfg1.N) (y : S16x16.Idx) :
    (iblk1 V c 1 t : Vec Ideal S16x16 .f32) y = (V c main_arg4 : S16x16.Idx → Elt Ideal .f32) y := by
  obtain ⟨-, -, -, -, e10, e11⟩ := index_facts t
  unfold iblk1
  rw [View.read_apply]
  show V c main_arg4 _ = V c main_arg4 _
  congr 1
  funext a
  apply Fin.ext
  match a with
  | ⟨0, _⟩ => show win1_1.index t 0 * 16 + 1 * (y 0).val = (y 0).val; rw [e10]; omega
  | ⟨1, _⟩ => show win1_1.index t 1 * 16 + 1 * (y 1).val = (y 1).val; rw [e11]; omega

/-- What point t writes back is block t of the whole product of the two arrays as the region found them. -/
theorem flushed_eq (c : Dev nD) (t : Fin cfg1.N) :
    (dat1 (F := Ideal) V c).flushed 2 t
      = ((cfg1.win 2).blk t).view.read (Elt Ideal) (product (V c main_v46) (V c main_arg4)) := by
  show (cfg1.win 2).cut (grid1.coords t) ((dat1 V c).after 2 t) = _
  rw [after1_2]
  unfold out1_2
  rw [View.canon_unit_zero zeroOffsets]
  simp only [View.ld_unit_zero (S := S5000x16) zeroOffsets, View.ld_unit_zero (S := S16x16) zeroOffsets]
  obtain ⟨e20, e21, -, -, -, -⟩ := index_facts t
  have ht : t.val < 20 := lt_of_lt_of_eq t.isLt N_1
  funext j
  rw [View.read_apply]
  exact block_apply (V c main_v46) (V c main_arg4) (iblk1 V c 0 t) (iblk1 V c 1 t) t.val ht
    (fun p k => lhs_block_apply V c t (ix2 p k) (ix2 (⟨5000 * t.val + p.val, by omega⟩ : Fin 100000) k) rfl rfl)
    (fun k q => rhs_block_apply V c t (ix2 k q))
    j (((cfg1.win 2).blk t).view.emb j)
    (by show win1_2.index t 0 * 5000 + 1 * (j 0).val = 5000 * t.val + (j 0).val; rw [e20]; omega)
    (by show win1_2.index t 1 * 16 + 1 * (j 1).val = (j 1).val; rw [e21]; omega)

/-- An index of the output array is in point t's block iff each coordinate is in the block's range. -/
theorem mem_block (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v47).slice (win1_2.rect t)).set ↔ _
  rw [View.set_slice_whole, Rect.mem_set_unit]
  exact Iff.rfl

/-- Row r of the output lies in the block of point r / 5000, and every point writes its block back. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  have hlt : (i 0).val / 5000 < cfg1.N := by rw [hN]; omega
  obtain ⟨e20, e21, -, -, -, -⟩ := index_facts ⟨(i 0).val / 5000, hlt⟩
  refine ⟨⟨(i 0).val / 5000, hlt⟩, flush1_2 _, ?_⟩
  rw [mem_block]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hlt⟩ (1 : Fin 2) * 16 ≤ (i 1).val ∧ (i 1).val < win1_2.index ⟨(i 0).val / 5000, hlt⟩ (1 : Fin 2) * 16 + 16
    rw [e21]; omega

/-- The output array when the region ends: the whole product, after the maximum with zero, of the two operand arrays
    as the region found them. -/
theorem output_array (c : Dev nD) :
    (dat1 (F := Ideal) V c).arrAt 2 cfg1.N = product (V c main_v46) (V c main_arg4) :=
  (dat1 V c).arrAt_eq_of_cover 2 (product (V c main_v46) (V c main_arg4)) (fun t _ => flushed_eq V c t) cover

end Cert.KernelIdeal.Region1

end
-- ==== Proof.KernelValue.lean ====
/-
  The idealized kernel program's result, as a value.

  Boundary by boundary: the first region leaves the product x · W1 in its output array; the host operations after it
  gather that product's rows at the edge sources, weight them, scatter-add them at the edge destinations and add the
  bias — one layer's aggregation of x · W1 and b1; the second region leaves max(·, 0) · W2 of that; the last host
  operations are the same aggregation of it with b2. The edge endpoints and weights these operations read were
  computed before the first region and no later operation or region writes them. So the result buffer ends holding the
  two-layer function of the launch contents of the six arguments.
-/
import proofs.«130701_j58729382805523_1_alg».proof.Proof.KernelBoundary
import proofs.«130701_j58729382805523_1_alg».proof.Proof.Region0Value
import proofs.«130701_j58729382805523_1_alg».proof.Proof.Region1Value

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first region's exit -/

/-- The sources of the edges: not an array of the region. -/
theorem exit0_v5 (c : Dev nD) : W4 m ρ c (Proc.devRef .tc main_v5) = Cert.Gcn.srcIds (F := Ideal) (m ((c.tc : Thread nD τ).loc main_arg1)) :=
  (W4_of_ne m ρ c main_v5 (by decide)).trans (Boundary.entry0_src m ρ c)

/-- The destinations of the edges. -/
theorem exit0_v6 (c : Dev nD) : W4 m ρ c (Proc.devRef .tc main_v6) = Cert.Gcn.dstIds (F := Ideal) (m ((c.tc : Thread nD τ).loc main_arg1)) :=
  (W4_of_ne m ρ c main_v6 (by decide)).trans (Boundary.entry0_dst m ρ c)

/-- The edge weights. -/
theorem exit0_v30 (c : Dev nD) : W4 m ρ c (Proc.devRef .tc main_v30) = broadcastInDim S3300000x1 ![0] bcast_S3300000_S3300000x1_0 (Cert.Gcn.edgeNorm (F := Ideal) (m ((c.tc : Thread nD τ).loc main_arg1))) :=
  (W4_of_ne m ρ c main_v30 (by decide)).trans (Boundary.entry0_norm m ρ c)

/-- The first bias. -/
theorem exit0_arg3 (c : Dev nD) : W4 m ρ c (Proc.devRef .tc main_arg3) = (m ((c.tc : Thread nD τ).loc main_arg3)) :=
  (W4_of_ne m ρ c main_arg3 (by decide)).trans (Boundary.entry0_arg3 m ρ c)

/-- The second weight matrix. -/
theorem exit0_arg4 (c : Dev nD) : W4 m ρ c (Proc.devRef .tc main_arg4) = (m ((c.tc : Thread nD τ).loc main_arg4)) :=
  (W4_of_ne m ρ c main_arg4 (by decide)).trans (Boundary.entry0_arg4 m ρ c)

/-- The second bias. -/
theorem exit0_arg5 (c : Dev nD) : W4 m ρ c (Proc.devRef .tc main_arg5) = (m ((c.tc : Thread nD τ).loc main_arg5)) :=
  (W4_of_ne m ρ c main_arg5 (by decide)).trans (Boundary.entry0_arg5 m ρ c)

/-- The region's output array: the product x · W1 of the launch contents. -/
theorem exit0_v31 (c : Dev nD) : W4 m ρ c (Proc.devRef .tc main_v31) = Region0.product (m ((c.tc : Thread nD τ).loc main_arg0)) (m ((c.tc : Thread nD τ).loc main_arg2)) := by
  refine (W4_arr m ρ c 2).trans ((Region0.output_array (V3 m ρ) c).trans ?_)
  show Region0.product (W3 m ρ c (Proc.devRef .tc main_arg0)) (W3 m ρ c (Proc.devRef .tc main_arg2)) = _
  rw [entry0_arg0, entry0_arg2]

/-! ## At the second region's entry -/

set_option maxHeartbeats 4000000 in
/-- The sources of the edges: no operation of the stretch writes them. -/
theorem entry1_v5 (c : Dev nD) : W5 m ρ c (Proc.devRef .tc main_v5) = Cert.Gcn.srcIds (F := Ideal) (m ((c.tc : Thread nD τ).loc main_arg1)) := by
  show after hostOps1 (W4 m ρ c) (Proc.devRef .tc main_v5) = _
  dsimp only [hostOps1]
  after_results_simp
  exact exit0_v5 m ρ c

set_option maxHeartbeats 4000000 in
/-- The destinations of the edges. -/
theorem entry1_v6 (c : Dev nD) : W5 m ρ c (Proc.devRef .tc main_v6) = Cert.Gcn.dstIds (F := Ideal) (m ((c.tc : Thread nD τ).loc main_arg1)) := by
  show after hostOps1 (W4 m ρ c) (Proc.devRef .tc main_v6) = _
  dsimp only [hostOps1]
  after_results_simp
  exact exit0_v6 m ρ c

set_option maxHeartbeats 4000000 in
/-- The edge weights. -/
theorem entry1_v30 (c : Dev nD) : W5 m ρ c (Proc.devRef .tc main_v30) = broadcastInDim S3300000x1 ![0] bcast_S3300000_S3300000x1_0 (Cert.Gcn.edgeNorm (F := Ideal) (m ((c.tc : Thread nD τ).loc main_arg1))) := by
  show after hostOps1 (W4 m ρ c) (Proc.devRef .tc main_v30) = _
  dsimp only [hostOps1]
  after_results_simp
  exact exit0_v30 m ρ c

set_option maxHeartbeats 4000000 in
/-- The second weight matrix. -/
theorem entry1_arg4 (c : Dev nD) : W5 m ρ c (Proc.devRef .tc main_arg4) = (m ((c.tc : Thread nD τ).loc main_arg4)) := by
  show after hostOps1 (W4 m ρ c) (Proc.devRef .tc main_arg4) = _
  dsimp only [hostOps1]
  after_results_simp
  exact exit0_arg4 m ρ c

set_option maxHeartbeats 4000000 in
/-- The second bias. -/
theorem entry1_arg5 (c : Dev nD) : W5 m ρ c (Proc.devRef .tc main_arg5) = (m ((c.tc : Thread nD τ).loc main_arg5)) := by
  show after hostOps1 (W4 m ρ c) (Proc.devRef .tc main_arg5) = _
  dsimp only [hostOps1]
  after_results_simp
  exact exit0_arg5 m ρ c

set_option maxHeartbeats 4000000 in
/-- The first layer's output: the aggregation of x · W1 with the first bias. -/
theorem entry1_v46 (c : Dev nD) : W5 m ρ c (Proc.devRef .tc main_v46) = Cert.Gcn.aggregate (F := Ideal) (m ((c.tc : Thread nD τ).loc main_arg1)) (Region0.product (m ((c.tc : Thread nD τ).loc main_arg0)) (m ((c.tc : Thread nD τ).loc main_arg2))) (m ((c.tc : Thread nD τ).loc main_arg3)) := by
  show after hostOps1 (W4 m ρ c) (Proc.devRef .tc main_v46) = _
  dsimp only [hostOps1]
  after_results_simp
  rw [exit0_v5, exit0_v6, exit0_v30, exit0_v31, exit0_arg3]
  rfl

/-! ## At the second region's exit -/

/-- The sources of the edges: not an array of the region. -/
theorem exit1_v5 (c : Dev nD) : W6 m ρ c (Proc.devRef .tc main_v5) = Cert.Gcn.srcIds (F := Ideal) (m ((c.tc : Thread nD τ).loc main_arg1)) :=
  (W6_of_ne m ρ c main_v5 (by decide)).trans (entry1_v5 m ρ c)

/-- The destinations of the edges. -/
theorem exit1_v6 (c : Dev nD) : W6 m ρ c (Proc.devRef .tc main_v6) = Cert.Gcn.dstIds (F := Ideal) (m ((c.tc : Thread nD τ).loc main_arg1)) :=
  (W6_of_ne m ρ c main_v6 (by decide)).trans (entry1_v6 m ρ c)

/-- The edge weights. -/
theorem exit1_v30 (c : Dev nD) : W6 m ρ c (Proc.devRef .tc main_v30) = broadcastInDim S3300000x1 ![0] bcast_S3300000_S3300000x1_0 (Cert.Gcn.edgeNorm (F := Ideal) (m ((c.tc : Thread nD τ).loc main_arg1))) :=
  (W6_of_ne m ρ c main_v30 (by decide)).trans (entry1_v30 m ρ c)

/-- The second bias. -/
theorem exit1_arg5 (c : Dev nD) : W6 m ρ c (Proc.devRef .tc main_arg5) = (m ((c.tc : Thread nD τ).loc main_arg5)) :=
  (W6_of_ne m ρ c main_arg5 (by decide)).trans (entry1_arg5 m ρ c)

/-- The region's output array: max(first layer's output, 0) · W2. -/
theorem exit1_v47 (c : Dev nD) : W6 m ρ c (Proc.devRef .tc main_v47) = Region1.product (Cert.Gcn.aggregate (F := Ideal) (m ((c.tc : Thread nD τ).loc main_arg1)) (Region0.product (m ((c.tc : Thread nD τ).loc main_arg0)) (m ((c.tc : Thread nD τ).loc main_arg2))) (m ((c.tc : Thread nD τ).loc main_arg3))) (m ((c.tc : Thread nD τ).loc main_arg4)) := by
  refine (W6_arr m ρ c 2).trans ((Region1.output_array (V5 m ρ) c).trans ?_)
  show Region1.product (W5 m ρ c (Proc.devRef .tc main_v46)) (W5 m ρ c (Proc.devRef .tc main_arg4)) = _
  rw [entry1_v46, entry1_arg4]

/-! ## At the return -/

set_option maxHeartbeats 4000000 in
/-- The result buffer: the aggregation of the second region's product with the second bias. -/
theorem result_layers (c : Dev nD) : W7 m ρ c (Proc.devRef .tc main_v62) = Cert.Gcn.aggregate (F := Ideal) (m ((c.tc : Thread nD τ).loc main_arg1)) (Region1.product (Cert.Gcn.aggregate (F := Ideal) (m ((c.tc : Thread nD τ).loc main_arg1)) (Region0.product (m ((c.tc : Thread nD τ).loc main_arg0)) (m ((c.tc : Thread nD τ).loc main_arg2))) (m ((c.tc : Thread nD τ).loc main_arg3))) (m ((c.tc : Thread nD τ).loc main_arg4))) (m ((c.tc : Thread nD τ).loc main_arg5)) := by
  show after hostOps2 (W6 m ρ c) (Proc.devRef .tc main_v62) = _
  dsimp only [hostOps2]
  after_results_simp
  rw [exit1_v5, exit1_v6, exit1_v30, exit1_v47, exit1_arg5]
  rfl

/-- The result buffer holds the two-layer function of the launch contents of the six arguments. -/
theorem result_eq (c : Dev nD) :
    W7 m ρ c (Proc.devRef .tc main_v62)
      = Cert.Gcn.twoLayer (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (result_layers m ρ c).trans rfl

end Cert.KernelIdeal.Boundary

end
-- ==== Proof.lean ====
/-
  Two layers of graph convolution over a graph of 100000 nodes and 3200000 edges with self loops:
  a Pallas kernel program against its jnp reference, equal as extended reals.

  Both programs compute, from the edge list, the edge endpoints and the symmetric weights
  norm(e) = deg(src e)^(-1/2) * deg(dst e)^(-1/2), and then twice: a dense product, a row gather at the edge sources, a
  product with the weights, a scatter-add at the edge destinations, and a bias. They differ in the two dense
  products only. The reference takes them on the host (`dot_general` of the whole arrays, the second after a maximum
  with zero). The kernel program takes each in a pipelined region of 20 grid points, each point multiplying a block of
  5000 rows — narrowed to bf16, which at the extended reals is the identity — by the whole right operand, accumulated
  into zeros (the second after a maximum with zero inside the body). Entry (r, q) of either is the same finite sum over
  k of lhs(r, k) * rhs(k, q), so the row blocks tile the host's product and the programs' results are the same
  function `Cert.Gcn.twoLayer` of the six arguments. Only commutative-monoid facts about sums are used: the
  precondition (finite inputs) is never opened, and the integer edge list may hold any words.

  The pieces: `Proof/GcnSpec.lean` (the function), `Proof/RefValue.lean` over the reference's run (its result term
  is the function), `Proof/Region0Value.lean` and `Proof/Region1Value.lean` (each region's output array is the
  host's product), `Proof/KernelRun.lean` (the kernel program's run with its result named),
  `Proof/KernelBoundary.lean` and `Proof/KernelValue.lean` (the buffer contents between the segments, hence the
  result). The frames of the two kernel programs are the generated ones; the reference's frame is its run with the
  result dropped; the idealization rewrote nothing, so `preserves` is `True`.
-/
import proofs.«130701_j58729382805523_1_alg».proof.Defs
import proofs.«130701_j58729382805523_1_alg».proof.Proof.Gen.Kernel
import proofs.«130701_j58729382805523_1_alg».proof.Proof.Gen.Kernel.Skeleton
import proofs.«130701_j58729382805523_1_alg».proof.Proof.Gen.Kernel.Launch
import proofs.«130701_j58729382805523_1_alg».proof.Proof.Gen.Kernel.Points
import proofs.«130701_j58729382805523_1_alg».proof.Proof.Gen.Kernel.Frame
import proofs.«130701_j58729382805523_1_alg».proof.Proof.Gen.KernelIdeal
import proofs.«130701_j58729382805523_1_alg».proof.Proof.Gen.KernelIdeal.Skeleton
import proofs.«130701_j58729382805523_1_alg».proof.Proof.Gen.KernelIdeal.Launch
import proofs.«130701_j58729382805523_1_alg».proof.Proof.Gen.KernelIdeal.Points
import proofs.«130701_j58729382805523_1_alg».proof.Proof.Gen.KernelIdeal.Frame
import proofs.«130701_j58729382805523_1_alg».proof.Proof.Gen.ReferenceIdeal
import proofs.«130701_j58729382805523_1_alg».proof.Proof.Gen.Pre_finite_inputs
import proofs.«130701_j58729382805523_1_alg».proof.Proof.RefRunPatched
import proofs.«130701_j58729382805523_1_alg».proof.Proof.RefValue
import proofs.«130701_j58729382805523_1_alg».proof.Proof.KernelRun
import proofs.«130701_j58729382805523_1_alg».proof.Proof.KernelValue
import Idealize.ShloMosaic.Adequacy
import Idealize.ShloMosaic.Init

noncomputable section

namespace Cert.Proof

open Idealize.ShloMosaic Idealize.ShloMosaic.TcCoe Idealize.SL.Sem

/-- The kernel program runs and leaves its arguments as launched: the generated frame. -/
theorem frame_kernel : Cert.frame_Kernel := fun m ρ _ => Cert.Kernel.Gen.frame m ρ

/-- The same for the idealized kernel program. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- The idealized kernel program's run: its result buffer ends at the two-layer function of the launch contents. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v62)
          = Cert.Gcn.twoLayer (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun _ h c => ⟨(h c).1.trans (Cert.KernelIdeal.Boundary.result_eq m ρ c), (h c).2⟩)
    (Cert.KernelIdeal.RunV.run (F := Ideal) m ρ)

/-- From memories agreeing on the arguments both programs end with the same result: the two-layer function of the
    arguments, on the kernel side by `kernel_run`, on the reference's side by its run and `Cert.Gcn.reference_result`. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5⟩ := hagree c
  rw [Cert.Gcn.reference_result m' c, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
